-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S4096x2048 .f32) (main_arg1 : FVec F S2048x2048 .f32) (main_arg2 : FVec F S2048 .f32) (main_arg3 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S2x2048 : Shape := ⟨2, ![2, 2048]⟩
abbrev S512x2048 : Shape := ⟨2, ![512, 2048]⟩

abbrev nBuf : Space → Nat
  | .hbm => 9
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S1x2048, .f32⟩
  | .hbm, ⟨6, _⟩ => ⟨S1x2048, .f32⟩
  | .hbm, ⟨7, _⟩ => ⟨S2x2048, .f32⟩
  | .hbm, ⟨8, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .f32⟩
  | .local _ .vmem, ⟨3, _⟩ => ⟨S2x2048, .f32⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S2048_S1x2048_1 : S2048.BroadcastsInDim S1x2048 (![1] : Fin 1 → Fin S1x2048.rank)
  concatenates_S1x2048_S1x2048_S2x2048_d0 : Shape.Concatenates [S1x2048, S1x2048] S2x2048 0
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  shapeCasts_S2048x2048_S2048x2048 : S2048x2048.ShapeCasts S2048x2048
  packedbf16_S2048x2048_S2048x2048_0_0 : (Rect.unit (s := S2048x2048) ![0, 0] S2048x2048.size inb_S2048x2048_S2048x2048_0_0).PackedRows (EltTy.packing .bf16)
  inb_S512x2048_S512x2048_0_0 : ∀ a, (![0, 0] : Fin 2 → Nat) a + S512x2048.size a ≤ S512x2048.size a
  h_S512x2048 : 0 < S512x2048.numel
  inb_S2x2048_S1x2048_1_0 : ∀ a, (![1, 0] : Fin 2 → Nat) a + S1x2048.size a ≤ S2x2048.size a
  h_S1x2048 : 0 < S1x2048.numel
  shapeCasts_S1x2048_S1x2048 : S1x2048.ShapeCasts S1x2048
  broadcasts_S1x2048_S512x2048 : S1x2048.Broadcasts S512x2048
  inb_S2x2048_S1x2048_0_0 : ∀ a, (![0, 0] : Fin 2 → Nat) a + S1x2048.size a ≤ S2x2048.size a
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .f32 = 32 ∨ (Rect.block (s := S2048x2048) S2048x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x2048.size a ≤ S2x2048.size a
  hwx0_2 : ∀ i : grid0.Coords, EltTy.bits .f32 = 32 ∨ (Rect.block (s := S2x2048) S2x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .f32 = 32 ∨ (Rect.block (s := S4096x2048) S512x2048.size (cc0_transform_3 i) (hinb0_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S2x2048 : Shape := ⟨2, ![2, 2048]⟩
abbrev S512x512 : Shape := ⟨2, ![512, 512]⟩
abbrev S256x512 : Shape := ⟨2, ![256, 512]⟩
abbrev S2x256 : Shape := ⟨2, ![2, 256]⟩
abbrev S512x256 : Shape := ⟨2, ![512, 256]⟩
abbrev S1x256 : Shape := ⟨2, ![1, 256]⟩

abbrev nBuf : Space → Nat
  | .hbm => 17
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S_, .i32⟩
  | .hbm, ⟨5, _⟩ => ⟨S_, .f32⟩
  | .hbm, ⟨6, _⟩ => ⟨S2048x2048, .f32⟩
  | .hbm, ⟨7, _⟩ => ⟨S_, .i32⟩
  | .hbm, ⟨8, _⟩ => ⟨S_, .f32⟩
  | .hbm, ⟨9, _⟩ => ⟨S2048, .f32⟩
  | .hbm, ⟨10, _⟩ => ⟨S_, .i32⟩
  | .hbm, ⟨11, _⟩ => ⟨S_, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S2x2048, .f32⟩
  | .hbm, ⟨16, _⟩ => ⟨S4096x2048, .f32⟩
  | .local _ .vmem, ⟨0, _⟩ => ⟨S512x512, .f32⟩
  | .local _ .vmem, ⟨1, _⟩ => ⟨S512x512, .f32⟩
  | .local _ .vmem, ⟨2, _⟩ => ⟨S256x512, .f32⟩
  | .local _ .vmem, ⟨3, _⟩ => ⟨S256x512, .f32⟩
  | .local _ .vmem, ⟨4, _⟩ => ⟨S2x256, .f32⟩
  | .local _ .vmem, ⟨5, _⟩ => ⟨S2x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  pads_S2048x2048_S2048x2048_000_000 : S2048x2048.Pads (![0, 0] : Fin 2 → Nat) ![0, 0] ![0, 0] S2048x2048
  h_S_ : 0 < S_.numel
  pads_S2048_S2048_000 : S2048.Pads (![0] : Fin 1 → Nat) ![0] ![0] S2048
  bcast_S2048_S1x2048_1 : S2048.BroadcastsInDim S1x2048 (![1] : Fin 1 → Fin S1x2048.rank)
  concatenates_S1x2048_S1x2048_S2x2048_d0 : Shape.Concatenates [S1x2048, S1x2048] S2x2048 0
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S512x512_S512x512_0_0 : ∀ a, (![0, 0] : Fin 2 → Nat) a + S512x512.size a ≤ S512x512.size a
  h_S512x512 : 0 < S512x512.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S2x256_S1x256_0_0 : ∀ a, (![0, 0] : Fin 2 → Nat) a + S1x256.size a ≤ S2x256.size a
  h_S1x256 : 0 < S1x256.numel
  shapeCasts_S1x256_S1x256 : S1x256.ShapeCasts S1x256
  inb_S2x256_S1x256_1_0 : ∀ a, (![1, 0] : Fin 2 → Nat) a + S1x256.size a ≤ S2x256.size a
  broadcasts_S1x256_S512x256 : S1x256.Broadcasts S512x256
  dot_S512x512_S256x512_S512x256_1_1_0_0_n_n_wf : DotDims.WF S512x512 S256x512 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x2048.size a
  hwx0_0 : ∀ i : grid0.Coords, EltTy.bits .f32 = 32 ∨ (Rect.block (s := S4096x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S2048x2048.size a
  hwx0_1 : ∀ i : grid0.Coords, EltTy.bits .f32 = 32 ∨ (Rect.block (s := S2048x2048) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256.size a ≤ S2x2048.size a
  hwx0_2 : ∀ i : grid0.Coords, EltTy.bits .f32 = 32 ∨ (Rect.block (s := S2x2048) S2x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x2048.size a
  hwx0_3 : ∀ i : grid0.Coords, EltTy.bits .f32 = 32 ∨ (Rect.block (s := S4096x2048) S512x256.size (cc0_transform_3 i) (hinb0_3 i)).WholeWords (EltTy.packing .f32)

variable [Facts₀]

def dot_S512x512_S256x512_S512x256_1_1_0_0_n_n : DotDims S512x512 S256x512 S512x256 where
  lhsContracting := [1]
  rhsContracting := [1]
  lhsNonContracting := [0]
  rhsNonContracting := [0]
  lhsBatch := []
  rhsBatch := []
  wf := dot_S512x512_S256x512_S512x256_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== Proof.LibRealValued.lean ====
/-
  Real-valued entries on the extended reals.

  At the ideal reading a float is an extended real.  x - x = 0 holds exactly when x is a real number
  (top minus top is bottom), so a program that returns the mean of |h - h| returns 0 as soon as every entry of h is
  real, whatever h is.  This module states "every entry is a real number" for a vector, shows that the
  operations a counting histogram is built from keep it (sums, products, an integer read as a float, a change
  of format, a matrix product into a zero accumulator, an accumulating scatter, and every operation that only
  moves entries: slice, reshape, gather) and closes the mean of |h - h|.
-/
import Idealize.ShloMosaic.PureOps.Ideal.Laws

noncomputable section

namespace Cert.RealValued

open Idealize.ShloMosaic

/-- An extended real that is a real number: neither infinity. -/
def IsReal (x : EReal) : Prop := ∃ r : ℝ, x = (r : EReal)

theorem isReal_zero : IsReal 0 := ⟨0, rfl⟩

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is zero (false at the infinities). -/
theorem IsReal.sub_self {x : EReal} (hx : IsReal x) : x - x = 0 := by
  obtain ⟨a, rfl⟩ := hx
  rw [← EReal.coe_sub, _root_.sub_self, EReal.coe_zero]

/-- Every entry of a vector of extended reals is a real number. -/
def AllReal {S : Shape} (v : S.Idx → EReal) : Prop := ∀ i, IsReal (v i)

/-- Re-indexing (a slice, a reshape, a gather, a broadcast) only moves entries. -/
theorem AllReal.comp {S T : Shape} {v : S.Idx → EReal} (hv : AllReal v) (f : T.Idx → S.Idx) : AllReal fun j => v (f j) :=
  fun j => hv (f j)

theorem allReal_const {S : Shape} {x : EReal} (hx : IsReal x) : AllReal (S := S) fun _ => x := fun _ => hx

section Ops
variable {S T : Shape} {φ : FTy}

theorem allReal_addf {x y : FVec Ideal S φ} (hx : AllReal x) (hy : AllReal y) : AllReal (addf x y) :=
  fun i => (hx i).add (hy i)

/-- The splat of the zero word. -/
theorem allReal_broadcast_zero : AllReal (broadcast S (Scalar.ofBits (F := Ideal) .f32 0x00000000#32)) := fun _ => by
  show IsReal (Ideal.ofBits .f32 0x00000000#32)
  rw [Ideal.ofBits_zero_f32]; exact isReal_zero

theorem allReal_constant_zero : AllReal (constant (F := Ideal) S .f32 0x00000000#32) := fun _ => by
  show IsReal (Ideal.ofBits .f32 0x00000000#32)
  rw [Ideal.ofBits_zero_f32]; exact isReal_zero

/-- An integer read as a float is that integer; a change of format is the identity. -/
theorem allReal_sitofp {w : Nat} (x : IVec S w) : AllReal (sitofp (F := Ideal) φ x) :=
  fun i => ⟨((x i).toInt : ℝ), rfl⟩

theorem allReal_truncf {ψ : FTy} {x : FVec Ideal S φ} (h : ψ.bits < φ.bits) (hx : AllReal x) : AllReal (truncf ψ x h) :=
  fun i => hx i

theorem allReal_shapeCast {x : S.Idx → EReal} (h : S.ShapeCasts T) (hx : AllReal x) : AllReal (shapeCast T x h) :=
  fun _ => hx _

theorem allReal_extractStridedSlice {x : S.Idx → EReal} (off : Fin S.rank → Nat) (h : S.Slices off T) (hx : AllReal x) :
    AllReal (extractStridedSlice T off x h) :=
  fun _ => hx _

theorem allReal_gather {si : Shape} {w : Nat} (d : GatherDims S si T) {x : S.Idx → EReal} (idx : IVec si w) (hx : AllReal x) :
    AllReal (Host.gather d x idx) :=
  fun _ => hx _

/-- A matrix product into the zero accumulator: each entry is a finite sum of products of entries. -/
theorem allReal_matmul_zero {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (FloatOps.matmul d prec lhs rhs (constant so .f32 0x00000000#32)) := fun j => by
  rw [Ideal.matmul_constant_zero_apply]
  exact isReal_sum _ _ fun k _ => (hl _).mul (hr _)

/-- An accumulating scatter: each entry is the operand's plus a finite sum of update entries, wherever the
    indices point. -/
theorem allReal_scatterAdd {si su : Shape} {w : Nat} (d : ScatterDims S si su) {x : FVec Ideal S φ} (idx : IVec si w)
    {upd : FVec Ideal su φ} (hx : AllReal x) (hu : AllReal upd) : AllReal (Ideal.hostScatterAdd d x idx upd) := fun i => by
  unfold Ideal.hostScatterAdd
  exact (hx i).add (isReal_sum _ _ fun j _ => hu j)

end Ops

/-- The word 0x46BF4000 (24480.0) denotes the real 24480. -/
theorem ofBits_24480 : Ideal.ofBits .f32 0x46BF4000#32 = ((24480 : ℝ) : EReal) := by
  simp [Ideal.ofBits, Ideal.ieee, -EReal.coe_mul]; norm_num

/-- The mean of |h - h|: for a vector h of real numbers every difference is 0, so is its absolute value, the sum
    of zeros from the zero word is 0, and 0 divided by a nonzero real is 0. -/
theorem mean_abs_sub_self {S T U : Shape} {axes : List (Fin S.rank)} (h : FVec Ideal S .f32) (hh : AllReal h)
    (hr : S.ReducesTo axes T) (hu : 0 < U.numel) (c : BitVec 32) (y : ℝ) (hy : y ≠ 0) (hc : Ideal.ofBits .f32 c = (y : EReal)) :
    Host.divf (F := Ideal) (Host.reduceAdd (F := Ideal) (Host.absf (F := Ideal) (subf h h)) (constant (F := Ideal) U .f32 0x00000000#32) hr hu)
        (constant (F := Ideal) T .f32 c)
      = fun _ => (0 : EReal) := by
  funext j
  have hz : Host.absf (F := Ideal) (subf h h) = fun _ => (0 : EReal) := by
    funext i
    show max (h i - h i) (-(h i - h i)) = 0
    rw [(hh i).sub_self, neg_zero, max_self]
  show Ideal.div (Ideal.hostReduceAdd hr (Host.absf (F := Ideal) (subf h h)) (Ideal.ofBits .f32 0x00000000#32) j) (Ideal.ofBits .f32 c) = 0
  rw [hz, hc, Ideal.div_coe hy]
  unfold Ideal.hostReduceAdd
  rw [Ideal.ofBits_zero_f32, Finset.sum_const_zero, add_zero, zero_mul]

end Cert.RealValued

end
-- ==== Proof.Spec.lean ====
/-
  The masked linear layer as one function of its four argument arrays, and the algebra that joins its two spellings.

  For x : [4096, 2048], w : [2048, 2048] and bias, mask : [2048], entry (b, v) of the result is

      (∑ k, x[b, k] · w[v, k]) · mask[v] + bias[v] · mask[v].

  One program computes exactly this: a whole row product, times the mask, plus the product bias · mask that it formed
  beforehand. The other accumulates the row product over four consecutive blocks of 512 values of k, starting from
  zero, then adds the bias and multiplies the sum by the mask: ((0 + ∑ₛ ∑ₖ′ …) + bias[v]) · mask[v].

  Cutting the sum over k into blocks is a re-indexing of a finite sum and holds for any extended reals. Multiplying
  out (a + b) · c does not: on the extended reals it fails when infinities of opposite sign meet. It holds when a, b, c
  are real numbers, and a finite sum of products of real numbers is a real number; so the two spellings agree as
  soon as every entry of the four arrays is real.
-/
import Idealize.ShloMosaic.Lib.ValueIdx
import proofs.«100447_g2000404418063307_pallasbulk_246_6_alg».proof.Proof.LibRealValued

noncomputable section

open scoped BigOperators

namespace Cert.MaskedLinear

open Idealize.ShloMosaic Idealize.ShloMosaic.ValueIdx Cert.RealValued

/-- Row `b` of x against row `v` of w. -/
def rowDot (x : (⟨2, ![4096, 2048]⟩ : Shape).Idx → EReal) (w : (⟨2, ![2048, 2048]⟩ : Shape).Idx → EReal)
    (b : Fin 4096) (v : Fin 2048) : EReal :=
  ∑ k : Fin 2048, x (ix2 b k) * w (ix2 v k)

/-- Entry (b, v) of the masked linear layer. -/
def entry (x : (⟨2, ![4096, 2048]⟩ : Shape).Idx → EReal) (w : (⟨2, ![2048, 2048]⟩ : Shape).Idx → EReal)
    (bias mask : (⟨1, ![2048]⟩ : Shape).Idx → EReal) (b : Fin 4096) (v : Fin 2048) : EReal :=
  rowDot x w b v * mask (ix1 v) + bias (ix1 v) * mask (ix1 v)

/-- The whole result array. -/
def result (x : (⟨2, ![4096, 2048]⟩ : Shape).Idx → EReal) (w : (⟨2, ![2048, 2048]⟩ : Shape).Idx → EReal)
    (bias mask : (⟨1, ![2048]⟩ : Shape).Idx → EReal) : (⟨2, ![4096, 2048]⟩ : Shape).Idx → EReal :=
  fun i => entry x w bias mask (i 0) (i 1)

theorem result_ix2 (x : (⟨2, ![4096, 2048]⟩ : Shape).Idx → EReal) (w : (⟨2, ![2048, 2048]⟩ : Shape).Idx → EReal)
    (bias mask : (⟨1, ![2048]⟩ : Shape).Idx → EReal) (b : Fin 4096) (v : Fin 2048) :
    result x w bias mask (ix2 b v) = entry x w bias mask b v := rfl

/-! ## The sum over k, block by block -/

/-- Position `k'` of block `s` of the 2048 values of k: 512 · s + k'. -/
def blockEquiv : Fin 4 × Fin 512 ≃ Fin 2048 where
  toFun p := ⟨512 * p.1.val + p.2.val, by have := p.1.isLt; have := p.2.isLt; omega⟩
  invFun n := (⟨n.val / 512, by have := n.isLt; omega⟩, ⟨n.val % 512, Nat.mod_lt _ (by decide)⟩)
  left_inv p := by
    obtain ⟨⟨s, hs⟩, ⟨k, hk⟩⟩ := p
    refine Prod.ext (Fin.ext ?_) (Fin.ext ?_)
    · show (512 * s + k) / 512 = s; omega
    · show (512 * s + k) % 512 = k; omega
  right_inv n := Fin.ext (by show 512 * (n.val / 512) + n.val % 512 = n.val; omega)

theorem blockEquiv_val (s : Fin 4) (k : Fin 512) : (blockEquiv (s, k)).val = 512 * s.val + k.val := rfl

/-- A sum over the 2048 values of k is the sum over the four blocks of the sums inside each block. -/
theorem sum_blocks (f : Fin 2048 → EReal) : ∑ k : Fin 2048, f k = ∑ s : Fin 4, ∑ k' : Fin 512, f (blockEquiv (s, k')) :=
  calc ∑ k : Fin 2048, f k = ∑ p : Fin 4 × Fin 512, f (blockEquiv p) := (Equiv.sum_comp blockEquiv f).symm
    _ = ∑ s : Fin 4, ∑ k' : Fin 512, f (blockEquiv (s, k')) := Fintype.sum_prod_type _

/-! ## Where real entries are needed -/

/-- (a + b) · c = a · c + b · c for real numbers a, b, c. -/
theorem add_mul_of_isReal {a b c : EReal} (ha : IsReal a) (hb : IsReal b) (hc : IsReal c) : (a + b) * c = a * c + b * c := by
  obtain ⟨a, rfl⟩ := ha; obtain ⟨b, rfl⟩ := hb; obtain ⟨c, rfl⟩ := hc
  rw [← EReal.coe_add, ← EReal.coe_mul, ← EReal.coe_mul, ← EReal.coe_mul, ← EReal.coe_add, add_mul]

/-- A row product of arrays of real numbers is a real number. -/
theorem isReal_rowDot {x : (⟨2, ![4096, 2048]⟩ : Shape).Idx → EReal} {w : (⟨2, ![2048, 2048]⟩ : Shape).Idx → EReal}
    (hx : AllReal x) (hw : AllReal w) (b : Fin 4096) (v : Fin 2048) : IsReal (rowDot x w b v) :=
  isReal_sum _ _ fun k _ => (hx _).mul (hw _)

/-- The blockwise spelling — the row product accumulated from zero over the four blocks, plus the bias, all times the
    mask — is the entry, for arrays of real numbers. -/
theorem blockwise_eq_entry {x : (⟨2, ![4096, 2048]⟩ : Shape).Idx → EReal} {w : (⟨2, ![2048, 2048]⟩ : Shape).Idx → EReal}
    {bias mask : (⟨1, ![2048]⟩ : Shape).Idx → EReal} (hx : AllReal x) (hw : AllReal w) (hb : AllReal bias) (hm : AllReal mask)
    (b : Fin 4096) (v : Fin 2048) :
    ((0 + ∑ s : Fin 4, ∑ k' : Fin 512, x (ix2 b (blockEquiv (s, k'))) * w (ix2 v (blockEquiv (s, k')))) + bias (ix1 v)) * mask (ix1 v)
      = entry x w bias mask b v := by
  rw [zero_add, ← sum_blocks fun k => x (ix2 b k) * w (ix2 v k)]
  exact add_mul_of_isReal (isReal_rowDot hx hw b v) (hb _) (hm _)

end Cert.MaskedLinear

end
-- ==== Proof.KernelPieces.lean ====
/-
  What one grid point of the fused kernel leaves behind, as a function of what it was given.

  A point is given a block of 512 rows of x, the whole weight w, and the two-row array whose row 0 is bias · mask and
  whose row 1 is the mask. At the first point it also stores the weight, cast to the narrower format, into a buffer
  that later points find as it was left. Every point then stores ONE block of the result: the product of its rows of x
  with the stored weight, times row 1, plus row 0. At the first point the weight it multiplies by is what it has just
  stored; at a later point it is what the buffer held on entry.
-/
import proofs.«100447_g2000404418063307_pallasbulk_246_6_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Row 1 of the two-row operand. -/
abbrev row1 (x2 : Vec F S2x2048 .f32) : Vec F S1x2048 .f32 :=
  View.ld x2 (Rect.unit (s := S2x2048) ![1, 0] S1x2048.size inb_S2x2048_S1x2048_1_0)

/-- Row 0 of the two-row operand. -/
abbrev row0 (x2 : Vec F S2x2048 .f32) : Vec F S1x2048 .f32 :=
  View.ld x2 (Rect.unit (s := S2x2048) ![0, 0] S1x2048.size inb_S2x2048_S1x2048_0_0)

/-- The first point leaves the cast weight in the carried buffer. -/
theorem weight_first (c : Dev nD) (i : grid0.Coords) (a1 : Memref sig .tc .vmem S512x2048 .f32) (h1 : a1.IsWhole) (a2 : Memref sig .tc .vmem S2048x2048 .f32) (h2 : a2.IsWhole) (a3 : Memref sig .tc .vmem S2x2048 .f32) (h3 : a3.IsWhole) (a4 : Memref sig .tc .vmem S512x2048 .f32) (h4 : a4.IsWhole) (a5 : Memref sig .tc .vmem S2048x2048 .bf16) (h5 : a5.IsWhole) (hc : cond0_0 i) (x0 : Vec F S512x2048 .f32) (x1 : Vec F S2048x2048 .f32) (x2 : Vec F S2x2048 .f32) :
    sout0_A_0 c i a1 h1 a2 h2 a3 h3 a4 h4 a5 h5 hc x0 x1 x2 = k0_pay1 x1 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero hz]
  simp only [View.readAt_eq_ld, h2.read_unread, View.ld_unit_zero (S := S2048x2048) hz]

/-- The first point's block of the result: the weight it multiplies by is the one it has just stored. -/
theorem block_first (c : Dev nD) (i : grid0.Coords) (a1 : Memref sig .tc .vmem S512x2048 .f32) (h1 : a1.IsWhole) (a2 : Memref sig .tc .vmem S2048x2048 .f32) (h2 : a2.IsWhole) (a3 : Memref sig .tc .vmem S2x2048 .f32) (h3 : a3.IsWhole) (a4 : Memref sig .tc .vmem S512x2048 .f32) (h4 : a4.IsWhole) (a5 : Memref sig .tc .vmem S2048x2048 .bf16) (h5 : a5.IsWhole) (hc : cond0_0 i) (x0 : Vec F S512x2048 .f32) (x1 : Vec F S2048x2048 .f32) (x2 : Vec F S2x2048 .f32) :
    out0_A_3 c i a1 h1 a2 h2 a3 h3 a4 h4 a5 h5 hc x0 x1 x2 = k0_pay2 x0 (k0_pay1 x1) (row1 x2) (row0 x2) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz]
  simp only [View.readAt_eq_ld, h1.read_unread, h2.read_unread, h3.read_unread, View.ld_unit_zero (S := S512x2048) hz,
    View.ld_unit_zero (S := S2048x2048) hz, View.readCov_unit_zero (S := S2048x2048) _ hz]

/-- A later point's block of the result, over the weight `xs` the buffer held on entry. -/
theorem block_later (c : Dev nD) (i : grid0.Coords) (a1 : Memref sig .tc .vmem S512x2048 .f32) (h1 : a1.IsWhole) (a2 : Memref sig .tc .vmem S2048x2048 .f32) (h2 : a2.IsWhole) (a3 : Memref sig .tc .vmem S2x2048 .f32) (h3 : a3.IsWhole) (a4 : Memref sig .tc .vmem S512x2048 .f32) (h4 : a4.IsWhole) (a5 : Memref sig .tc .vmem S2048x2048 .bf16) (h5 : a5.IsWhole) (hc : ¬cond0_0 i) (x0 : Vec F S512x2048 .f32) (x1 : Vec F S2048x2048 .f32) (x2 : Vec F S2x2048 .f32) (xs : Vec F S2048x2048 .bf16) :
    out0_B_3 c i a1 h1 a2 h2 a3 h3 a4 h4 a5 h5 hc x0 x1 x2 xs = k0_pay2 x0 xs (row1 x2) (row0 x2) := by
  unfold out0_B_3
  rw [View.read_writes_eq_canon _ _ _ (cover0_B_3 c i a1 h1 a2 h2 a3 h3 a4 h4 a5 h5 hc x0 x1 x2 xs)]
  unfold kernelRun0_B
  dsimp only
  rw [View.canon_unit_zero hz]
  simp only [View.readAt_eq_ld, h1.read_unread, h3.read_unread, h5.read_unread, View.ld_unit_zero (S := S512x2048) hz,
    View.ld_unit_zero (S := S2048x2048) hz]

end Cert.KernelIdeal.Pieces

end
-- ==== Proof.LibDotNT.lean ====
/-
  A matrix product against a transposed right operand, read at an index.

  For dimension numbers `D` of a product of an `M × K` operand with an `N × K` operand into `M × N` that contract ONE
  axis — the second axis of each operand, no batch axis (`x · wᵀ`) — the sum over `D`'s contraction index that the ideal
  instance gives for a `tpu.matmul` and for a host `dot_general` alike is the textbook one: entry `(r, c)` is the sum over
  `k : Fin K` of the left operand at `(r, k)` times the right operand at `(c, k)`.  What makes a given `D` of this kind is
  stated as four facts about the coordinates of its operand indices, which a concrete record proves by unfolding its
  lists of axes.
-/
import Idealize.ShloMosaic.Lib.ValueIdx
import Idealize.ShloMosaic.PureOps.Ideal.Laws

noncomputable section

open scoped BigOperators

namespace Cert.Lib.DotNT

open Idealize.ShloMosaic Idealize.ShloMosaic.ValueIdx

/-- The contraction sum re-indexed by the contracted axis' coordinate: at the output index `j` the left operand is
    read along its row `j 0` and the right operand along its row `j 1`. -/
theorem sum_nt {M K N : Nat}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (l : (⟨2, ![M, K]⟩ : Shape).Idx → EReal) (r : (⟨2, ![N, K]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 (j 1) k := funext fun a => Fin.ext (by
    match a with
    | ⟨0, _⟩ => exact r0 _ _
    | ⟨1, _⟩ => exact (r1 _ _).trans hk)
  exact congrArg₂ (fun a b : EReal => a * b) (congrArg l el) (congrArg r er)

/-- A `tpu.matmul` with such dimension numbers, at the ideal instance: the accumulator's entry plus that sum. -/
theorem matmul_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (acc : FVec Ideal (⟨2, ![M, N]⟩ : Shape) .f32) (j : (⟨2, ![M, N]⟩ : Shape).Idx) :
    FloatOps.matmul D prec l r acc j = acc j + ∑ k : Fin K, l (ix2 (j 0) k) * r (ix2 (j 1) k) := by
  rw [Ideal.matmul_apply]
  exact congrArg (acc j + ·) (sum_nt D hr hs l0 l1 r0 r1 l r j)

/-- Into the zero accumulator: just the sum. -/
theorem matmul_zero_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 (j 1) k) := by
  rw [Ideal.matmul_constant_zero_apply]
  exact sum_nt D hr hs l0 l1 r0 r1 l r j

/-- A host `dot_general` with such dimension numbers, at the ideal instance, is the same sum, whatever its precision
    and schedule keys. -/
theorem dotGeneral_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision) (sched : HostSchedule)
    (l : FVec Ideal (⟨2, ![M, K]⟩ : Shape) φ₁) (r : FVec Ideal (⟨2, ![N, K]⟩ : Shape) φ₂)
    (j : (⟨2, ![M, N]⟩ : Shape).Idx) :
    FloatOps.dotGeneral D prec sched l r j = ∑ k : Fin K, l (ix2 (j 0) k) * r (ix2 (j 1) k) := by
  rw [Ideal.dotGeneral_apply]
  exact sum_nt D hr hs l0 l1 r0 r1 l r j

end Cert.Lib.DotNT

end
-- ==== Proof.KernelPayload.lean ====
/-
  The fused kernel's two stored values, read at an index over the extended reals.

  A change of float format is the identity there, so the weight the first point stores is the weight itself. The
  block of the result at row p and column q is the sum over k of x[p, k] · w[q, k] — the matrix unit's product into a
  zero accumulator, contracting the second axis of both operands — times the one row of the mask at q, plus the one
  row of bias · mask at q.
-/
import proofs.«100447_g2000404418063307_pallasbulk_246_6_alg».proof.Proof.Gen.KernelIdeal.Skeleton
import proofs.«100447_g2000404418063307_pallasbulk_246_6_alg».proof.Proof.LibDotNT
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The dimension numbers of the body's product: x · wᵀ, [512, 2048] by [2048, 2048]. -/
abbrev DK : DotDims S512x2048 S2048x2048 S512x2048 := dot_S512x2048_S2048x2048_S512x2048_1_1_0_0_n_n

theorem DK_rank : DK.contr.rank = 1 := rfl
theorem DK_l0 (j : _) (q : DK.contr.Idx) : (DK.lhsIdx j q 0).val = (j 0).val := by
  first | rfl | (simp [DotDims.lhsIdx, DK, dot_S512x2048_S2048x2048_S512x2048_1_1_0_0_n_n] <;> rfl)
theorem DK_l1 (j : _) (q : DK.contr.Idx) : (DK.lhsIdx j q 1).val = (q ⟨0, by decide⟩).val := by
  first | rfl | (simp [DotDims.lhsIdx, DK, dot_S512x2048_S2048x2048_S512x2048_1_1_0_0_n_n] <;> rfl)
theorem DK_r0 (j : _) (q : DK.contr.Idx) : (DK.rhsIdx j q 0).val = (j 1).val := by
  first | rfl | (simp [DotDims.rhsIdx, DK, dot_S512x2048_S2048x2048_S512x2048_1_1_0_0_n_n] <;> rfl)
theorem DK_r1 (j : _) (q : DK.contr.Idx) : (DK.rhsIdx j q 1).val = (q ⟨0, by decide⟩).val := by
  first | rfl | (simp [DotDims.rhsIdx, DK, dot_S512x2048_S2048x2048_S512x2048_1_1_0_0_n_n] <;> rfl)

/-- The stored weight is the weight: the narrowing cast is the identity on extended reals. -/
theorem weight_eq (x1 : Vec Ideal S2048x2048 .f32) : (k0_pay1 (F := Ideal) x1 : S2048x2048.Idx → EReal) = x1 := by
  unfold k0_pay1
  simp only [shapeCast_self]
  rfl

/-- The stored block at (p, q). -/
theorem block_apply (x0 : Vec Ideal S512x2048 .f32) (wv : Vec Ideal S2048x2048 .bf16) (m1 b0 : Vec Ideal S1x2048 .f32)
    (p : Fin 512) (q : Fin 2048) :
    k0_pay2 (F := Ideal) x0 wv m1 b0 (ix2 p q)
      = (∑ k : Fin 2048, x0 (ix2 p k) * wv (ix2 q k)) * m1 (ix2 (0 : Fin 1) q) + b0 (ix2 (0 : Fin 1) q) := by
  unfold k0_pay2
  simp only [shapeCast_self]
  have hA := Cert.Lib.DotNT.matmul_zero_apply (M := 512) (K := 2048) (N := 2048) (φ₁ := .bf16) (φ₂ := .bf16) DK DK_rank rfl
    DK_l0 DK_l1 DK_r0 DK_r1 none (truncf .bf16 x0 bitsLt_bf16_f32) wv (ix2 p q)
  have hB := broadcastTo_1b_ab_apply (a := 512) (b := 2048) m1 broadcasts_S1x2048_S512x2048 p q
  have hC := broadcastTo_1b_ab_apply (a := 512) (b := 2048) b0 broadcasts_S1x2048_S512x2048 p q
  exact congrArg₂ (fun a b : EReal => a + b) (congrArg₂ (fun a b : EReal => a * b) hA hB) hC

end Cert.KernelIdeal.Payload

end
-- ==== Proof.KernelValue.lean ====
/-
  The fused kernel's result array, as one function of the argument arrays.

  The grid has eight points; point t is given rows 512·t … 512·t + 511 of x and writes the same rows of the result, all
  2048 columns. The weight and the two-row array of bias · mask and mask are given whole at every point. The weight the
  first point stores (the weight itself, over the extended reals) is what every later point finds, by induction on the
  point. So what point t writes back is rows 512·t … of the masked linear layer of the argument arrays, and the eight
  blocks of rows fill the result array.
-/
import proofs.«100447_g2000404418063307_pallasbulk_246_6_alg».proof.Proof.Spec
import proofs.«100447_g2000404418063307_pallasbulk_246_6_alg».proof.Proof.KernelPieces
import proofs.«100447_g2000404418063307_pallasbulk_246_6_alg».proof.Proof.KernelPayload
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen

variable (m : (ℓ : Loc nD τ sig) → Buf (Elt Ideal) ℓ) (ρ : Dev nD → PrngReg)

/-- The four argument arrays as launched, as arrays of extended reals. -/
abbrev argX (c : Dev nD) : S4096x2048.Idx → EReal := m ((c : Thread nD τ).loc main_arg0)
abbrev argW (c : Dev nD) : S2048x2048.Idx → EReal := m ((c : Thread nD τ).loc main_arg1)
abbrev argB (c : Dev nD) : S2048.Idx → EReal := m ((c : Thread nD τ).loc main_arg2)
abbrev argM (c : Dev nD) : S2048.Idx → EReal := m ((c : Thread nD τ).loc main_arg3)

/-- The masked linear layer of the argument arrays as launched. -/
abbrev resultArr (c : Dev nD) : Buf (Elt Ideal) ((c : Thread nD τ).loc main_v4) :=
  Cert.MaskedLinear.result (argX m c) (argW m c) (argB m c) (argM m c)

/-! ## Which block each window holds at a point -/

/-- The printed index maps over the eight points: x and the result move down by one block of rows per point, the
    other two operands stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's block of x is row 512·t + p of x. -/
theorem xblk_apply (c : Dev nD) (t : Fin cfg0.N) (p : Fin 512) (k : Fin 2048) (h : 512 * t.val + p.val < 4096) :
    (iblk m c 0 t : Vec Ideal S512x2048 .f32) (ix2 p k)
      = argX m c (ix2 (⟨512 * t.val + p.val, h⟩ : Fin 4096) k) := by
  obtain ⟨e0, e1, -⟩ := idx_facts t
  show V m c main_arg0 (((cfg0.win 0).blk t).view.emb (ix2 p k)) = _
  rw [V_main_arg0]
  refine congrArg (argX m c) (funext fun a => Fin.ext ?_)
  match a with
  | ⟨0, _⟩ => show win0_0.index t (0 : Fin 2) * 512 + 1 * p.val = 512 * t.val + p.val; rw [e0]; omega
  | ⟨1, _⟩ => show win0_0.index t (1 : Fin 2) * 2048 + 1 * k.val = k.val; rw [e1]; omega

/-- Every point's block of w is w. -/
theorem wblk_apply (c : Dev nD) (t : Fin cfg0.N) (j : S2048x2048.Idx) :
    (iblk m c 1 t : Vec Ideal S2048x2048 .f32) j = argW m c j := by
  obtain ⟨-, -, e2, e3, -⟩ := idx_facts t
  show V m c main_arg1 (((cfg0.win 1).blk t).view.emb j) = _
  rw [V_main_arg1]
  refine congrArg (argW m c) (funext fun a => Fin.ext ?_)
  match a with
  | ⟨0, _⟩ => show win0_1.index t (0 : Fin 2) * 2048 + 1 * (j 0).val = (j 0).val; rw [e2]; omega
  | ⟨1, _⟩ => show win0_1.index t (1 : Fin 2) * 2048 + 1 * (j 1).val = (j 1).val; rw [e3]; omega

/-- The two-row array the region finds: row 0 is bias · mask, row 1 is the mask. -/
theorem bm_eq (c : Dev nD) : (V m c main_v3 : S2x2048.Idx → EReal)
    = concatenate S2x2048 0
        [⟨S1x2048, broadcastInDim S1x2048 ![1] bcast_S2048_S1x2048_1
            (mulf (F := Ideal) (s := S2048) (φ := .f32) (argB m c) (argM m c))⟩,
          ⟨S1x2048, broadcastInDim S1x2048 ![1] bcast_S2048_S1x2048_1 (argM m c)⟩]
        concatenates_S1x2048_S1x2048_S2x2048_d0 := by
  dsimp only [Gen.V, Gen.hostOps0]
  after_results <;> rfl

/-- A length-2048 vector laid out as one row, read at column q. -/
theorem rowOf_apply (v : S2048.Idx → EReal) (q : Fin 2048) :
    broadcastInDim S1x2048 ![1] bcast_S2048_S1x2048_1 v (ix2 (0 : Fin 1) q) = v (ix1 q) :=
  broadcastInDim_apply ![1] bcast_S2048_S1x2048_1 v (ix2 (0 : Fin 1) q) (ix1 q) fun a => by
    match a with
    | ⟨0, _⟩ => rfl

theorem bm_row0 (c : Dev nD) (q : Fin 2048) : (V m c main_v3 : S2x2048.Idx → EReal) (ix2 (0 : Fin 2) q)
    = argB m c (ix1 q) * argM m c (ix1 q) := by
  rw [bm_eq]
  refine (concatenate_pair_apply_left (t := S2x2048) (s₁ := S1x2048) (s₂ := S1x2048) (0 : Fin 2) _ _ concatenates_S1x2048_S1x2048_S2x2048_d0 (ix2 (0 : Fin 2) q) rfl
    (ix2 (0 : Fin 1) q) fun b => ?_).trans ?_
  · match b with
    | ⟨0, _⟩ => rfl
    | ⟨1, _⟩ => rfl
  · exact rowOf_apply _ q

theorem bm_row1 (c : Dev nD) (q : Fin 2048) : (V m c main_v3 : S2x2048.Idx → EReal) (ix2 (1 : Fin 2) q)
    = argM m c (ix1 q) := by
  rw [bm_eq]
  refine (concatenate_pair_apply_right (t := S2x2048) (s₁ := S1x2048) (s₂ := S1x2048) (0 : Fin 2) _ _ concatenates_S1x2048_S1x2048_S2x2048_d0 (ix2 (1 : Fin 2) q) rfl rfl
    (ix2 (0 : Fin 1) q) (fun b hb => ?_) rfl).trans ?_
  · match b with
    | ⟨0, _⟩ => exact absurd rfl hb
    | ⟨1, _⟩ => rfl
  · exact rowOf_apply _ q

/-- Every point's block of the two-row array is the array. -/
theorem bmblk_apply (c : Dev nD) (t : Fin cfg0.N) (j : S2x2048.Idx) :
    (iblk m c 2 t : Vec Ideal S2x2048 .f32) j = (V m c main_v3 : S2x2048.Idx → EReal) j := by
  obtain ⟨-, -, -, -, e4, e5, -⟩ := idx_facts t
  show V m c main_v3 (((cfg0.win 2).blk t).view.emb j) = _
  refine congrArg (V m c main_v3 : S2x2048.Idx → EReal) (funext fun a => Fin.ext ?_)
  match a with
  | ⟨0, _⟩ => show win0_2.index t (0 : Fin 2) * 2 + 1 * (j 0).val = (j 0).val; rw [e4]; omega
  | ⟨1, _⟩ => show win0_2.index t (1 : Fin 2) * 2048 + 1 * (j 1).val = (j 1).val; rw [e5]; omega

/-! ## The carried weight -/

/-- After every point the carried buffer holds w. -/
theorem weight_after (c : Dev nD) : ∀ (n : ℕ) (hn : n < cfg0.N) (j : S2048x2048.Idx),
    ((outsAt0 m c n hn).2 : S2048x2048.Idx → EReal) j = argW m c j
  | 0, hn, j => by
    rw [outsAt0_A m c ⟨0, hn⟩ rfl]
    dsimp only
    rw [Pieces.weight_first, Payload.weight_eq]
    exact wblk_apply m c ⟨0, hn⟩ j
  | n + 1, hn, j => by
    have hN : cfg0.N = 8 := N_0
    have hB : ¬(⟨n + 1, hn⟩ : Fin cfg0.N).val % 8 = 0 := by dsimp only; omega
    rw [outsAt0_B m c ⟨n + 1, hn⟩ hB]
    dsimp only
    unfold sout0_B_0
    exact weight_after c n _ j

/-! ## One block of the result -/

/-- Row 1 and row 0 of a two-row array, read at column q. -/
theorem row1_apply (bm : Vec Ideal S2x2048 .f32) (q : Fin 2048) : Pieces.row1 bm (ix2 (0 : Fin 1) q) = bm (ix2 (1 : Fin 2) q) := by
  show bm ((Rect.unit (s := S2x2048) ![1, 0] S1x2048.size inb_S2x2048_S1x2048_1_0).idx (ix2 (0 : Fin 1) q)) = _
  refine congrArg bm (funext fun a => Fin.ext ?_)
  match a with
  | ⟨0, _⟩ => rfl
  | ⟨1, _⟩ => show 0 + 1 * q.val = q.val; omega

theorem row0_apply (bm : Vec Ideal S2x2048 .f32) (q : Fin 2048) : Pieces.row0 bm (ix2 (0 : Fin 1) q) = bm (ix2 (0 : Fin 2) q) := by
  show bm ((Rect.unit (s := S2x2048) ![0, 0] S1x2048.size inb_S2x2048_S1x2048_0_0).idx (ix2 (0 : Fin 1) q)) = _
  refine congrArg bm (funext fun a => Fin.ext ?_)
  match a with
  | ⟨0, _⟩ => rfl
  | ⟨1, _⟩ => show 0 + 1 * q.val = q.val; omega

/-- The stored block of a point that was given rows 512·T … of X, the weight W, and the two-row array of bias · mask and
    mask: at (p, q) it is entry (512·T + p, q) of the masked linear layer. -/
theorem block_value (x0 : Vec Ideal S512x2048 .f32) (wv : Vec Ideal S2048x2048 .bf16) (bm : Vec Ideal S2x2048 .f32)
    (X : S4096x2048.Idx → EReal) (W : S2048x2048.Idx → EReal) (bias mask : S2048.Idx → EReal) (T : ℕ)
    (p : Fin 512) (q : Fin 2048) (i : S4096x2048.Idx) (hi0 : (i 0).val = 512 * T + p.val) (hi1 : (i 1).val = q.val)
    (hx : ∀ k : Fin 2048, x0 (ix2 p k) = X (ix2 (i 0) k))
    (hw : ∀ j, wv j = W j)
    (hb0 : bm (ix2 (0 : Fin 2) q) = bias (ix1 q) * mask (ix1 q))
    (hb1 : bm (ix2 (1 : Fin 2) q) = mask (ix1 q)) :
    k0_pay2 (F := Ideal) x0 wv (Pieces.row1 bm) (Pieces.row0 bm) (ix2 p q) = Cert.MaskedLinear.result X W bias mask i := by
  have e1 : i 1 = q := Fin.ext hi1
  rw [Payload.block_apply, row1_apply, row0_apply, hb0, hb1]
  show _ = Cert.MaskedLinear.entry X W bias mask (i 0) (i 1)
  unfold Cert.MaskedLinear.entry Cert.MaskedLinear.rowDot
  rw [e1]
  simp only [hx, hw]

/-! ## What each point writes back, and the array -/

/-- What point t writes back is its block of rows of the masked linear layer. -/
theorem flushed_eq (c : Dev nD) (t : Fin cfg0.N) :
    (dats m 0 c).flushed 3 t = ((cfg0.win 3).blk t).view.read (Elt Ideal) (resultArr m c) := by
  have hN : cfg0.N = 8 := N_0
  have ht : t.val < 8 := lt_of_lt_of_eq t.isLt hN
  obtain ⟨-, -, -, -, -, -, e6, e7⟩ := idx_facts t
  by_cases h0 : t.val % 8 = 0
  · rw [Value.flushed3_A m c t h0, Pieces.block_first]
    funext y
    obtain ⟨p, q, rfl⟩ : ∃ (p : Fin 512) (q : Fin 2048), y = ix2 p q := ⟨y 0, y 1, eq_ix2 y⟩
    have hp := p.isLt
    refine block_value (iblk m c 0 t) (k0_pay1 (iblk m c 1 t)) (iblk m c 2 t) (argX m c) (argW m c) (argB m c) (argM m c) t.val p q
      (((cfg0.win 3).blk t).view.emb (ix2 p q)) ?_ ?_ (fun k => ?_) (fun j => ?_) ?_ ?_
    · show win0_3.index t (0 : Fin 2) * 512 + 1 * p.val = 512 * t.val + p.val; rw [e6]; omega
    · show win0_3.index t (1 : Fin 2) * 2048 + 1 * q.val = q.val; rw [e7]; omega
    · refine (xblk_apply m c t p k (by omega)).trans (congrArg (argX m c) ?_)
      refine funext fun a => Fin.ext ?_
      match a with
      | ⟨0, _⟩ => show 512 * t.val + p.val = win0_3.index t (0 : Fin 2) * 512 + 1 * p.val; rw [e6]; omega
      | ⟨1, _⟩ => rfl
    · rw [Payload.weight_eq]; exact wblk_apply m c t j
    · exact (bmblk_apply m c t _).trans (bm_row0 m c q)
    · exact (bmblk_apply m c t _).trans (bm_row1 m c q)
  · rw [Value.flushed3_B m c t h0, Pieces.block_later]
    funext y
    obtain ⟨p, q, rfl⟩ : ∃ (p : Fin 512) (q : Fin 2048), y = ix2 p q := ⟨y 0, y 1, eq_ix2 y⟩
    have hp := p.isLt
    refine block_value (iblk m c 0 t) ((outsAt0 m c (t.val - 1) (Nat.lt_of_le_of_lt (Nat.sub_le _ _) t.isLt)).2) (iblk m c 2 t) (argX m c) (argW m c) (argB m c) (argM m c) t.val p q
      (((cfg0.win 3).blk t).view.emb (ix2 p q)) ?_ ?_ (fun k => ?_) (fun j => ?_) ?_ ?_
    · show win0_3.index t (0 : Fin 2) * 512 + 1 * p.val = 512 * t.val + p.val; rw [e6]; omega
    · show win0_3.index t (1 : Fin 2) * 2048 + 1 * q.val = q.val; rw [e7]; omega
    · refine (xblk_apply m c t p k (by omega)).trans (congrArg (argX m c) ?_)
      refine funext fun a => Fin.ext ?_
      match a with
      | ⟨0, _⟩ => show 512 * t.val + p.val = win0_3.index t (0 : Fin 2) * 512 + 1 * p.val; rw [e6]; omega
      | ⟨1, _⟩ => rfl
    · exact weight_after m c _ _ j
    · exact (bmblk_apply m c t _).trans (bm_row0 m c q)
    · exact (bmblk_apply m c t _).trans (bm_row1 m c q)

/-- An index of the result array is in point t's block iff each coordinate is in the block's range on its axis. -/
theorem mem_blk (t : Fin cfg0.N) (i : S4096x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v4).slice (win0_3.rect t)).set ↔ _
  rw [View.set_slice_whole, Rect.mem_set_unit]
  exact Iff.rfl

/-- Row r of the result is in the block of point r / 512. -/
theorem cover (i : S4096x2048.Idx) : ∃ t : Fin cfg0.N, (cfg0.win 3).flush t = true ∧ i ∈ ((cfg0.win 3).blk t).view.set := by
  have hN : cfg0.N = 8 := N_0
  have hi0 : (i 0).val < 4096 := (i 0).isLt
  have hi1 : (i 1).val < 2048 := (i 1).isLt
  refine ⟨⟨(i 0).val / 512, by rw [hN]; omega⟩, flush0_3 _, ?_⟩
  obtain ⟨-, -, -, -, -, -, e6, e7⟩ := idx_facts ⟨(i 0).val / 512, by rw [hN]; omega⟩
  rw [mem_blk]
  intro a
  match a with
  | ⟨0, _⟩ =>
    show win0_3.index _ (0 : Fin 2) * 512 ≤ (i 0).val ∧ (i 0).val < win0_3.index _ (0 : Fin 2) * 512 + 512
    rw [e6]; dsimp only; omega
  | ⟨1, _⟩ =>
    show win0_3.index _ (1 : Fin 2) * 2048 ≤ (i 1).val ∧ (i 1).val < win0_3.index _ (1 : Fin 2) * 2048 + 2048
    rw [e7]; omega

/-- The result array after the run. -/
theorem final (c : Dev nD) : (dats m 0 c).arrAt 3 cfg0.N = resultArr m c :=
  (dats m 0 c).arrAt_eq_of_cover 3 (resultArr m c) (fun t _ => flushed_eq m c t) cover

/-- The run: it terminates with the result array at the masked linear layer of the arguments, which are unchanged. -/
theorem run : θ_run defs (onTc (τ := τ) (main (F := Ideal))) ⟨m, fun _ => 0, ρ⟩ fun r => ∀ c : Dev nD,
      r.2.mem ((c : Thread nD τ).loc main_v4) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.RefPieces.lean ====
/-
  What one grid point of the blocked kernel leaves behind, as a function of what it was given.

  A point (i, j, k) is given a 512 × 512 block of x, a 256 × 512 block of w, and 256 columns of the two-row array whose
  row 0 is the bias and whose row 1 is the mask. It carries a 512 × 256 accumulator from point to point. At k = 0 it
  first zeroes the accumulator. At every k it adds the product of its two blocks into the accumulator. At the last k
  it also stores its block of the result: the accumulator plus row 0, times row 1.
-/
import proofs.«100447_g2000404418063307_pallasbulk_246_6_alg».proof.Proof.Gen.ReferenceIdeal.Value
import Idealize.ShloMosaic.Lib.Pipeline.Value
import Idealize.ShloMosaic.Lib.Tactic

noncomputable section

open Idealize.ShloMosaic Idealize.ShloMosaic.TcCoe Idealize.SL.Sem

namespace Cert.ReferenceIdeal.Pieces

open Cert.ReferenceIdeal Cert.ReferenceIdeal.Gen

variable {F : FTy → Type} [FloatOps F]

theorem hz : (![0, 0] : Fin 2 → Nat) = fun _ => 0 := funext fun a => by fin_cases a <;> rfl

/-- Row 0 of the two-row operand's 256 columns. -/
abbrev row0 (x2 : Vec F S2x256 .f32) : Vec F S1x256 .f32 :=
  View.ld x2 (Rect.unit (s := S2x256) ![0, 0] S1x256.size inb_S2x256_S1x256_0_0)

/-- Row 1 of the two-row operand's 256 columns. -/
abbrev row1 (x2 : Vec F S2x256 .f32) : Vec F S1x256 .f32 :=
  View.ld x2 (Rect.unit (s := S2x256) ![1, 0] S1x256.size inb_S2x256_S1x256_1_0)

/-- At k = 0 the accumulator ends at the zero block plus the product of the point's blocks. -/
theorem acc_first (c : Dev nD) (i : grid0.Coords) (a3 : Memref sig .tc .vmem S512x512 .f32) (h3 : a3.IsWhole) (a4 : Memref sig .tc .vmem S256x512 .f32) (h4 : a4.IsWhole) (a5 : Memref sig .tc .vmem S2x256 .f32) (h5 : a5.IsWhole) (a6 : Memref sig .tc .vmem S512x256 .f32) (h6 : a6.IsWhole) (a7 : Memref sig .tc .vmem S512x256 .f32) (h7 : a7.IsWhole) (hc0 : cond0_0 i) (hc1 : ¬cond0_1 i) (x0 : Vec F S512x512 .f32) (x1 : Vec F S256x512 .f32) (x2 : Vec F S2x256 .f32) :
    sout0_A_0 c i a3 h3 a4 h4 a5 h5 a6 h6 a7 h7 hc0 hc1 x0 x1 x2 = k0_pay2 k0_pay1 x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S512x256) hz, View.readCov_unit_zero (S := S512x256) _ hz]
  simp only [View.readAt_eq_ld, h3.read_unread, h4.read_unread, View.ld_unit_zero (S := S512x512) hz,
    View.ld_unit_zero (S := S256x512) hz]

/-- At a middle k the accumulator ends at what it held, `xs`, plus the product of the point's blocks. -/
theorem acc_middle (c : Dev nD) (i : grid0.Coords) (a3 : Memref sig .tc .vmem S512x512 .f32) (h3 : a3.IsWhole) (a4 : Memref sig .tc .vmem S256x512 .f32) (h4 : a4.IsWhole) (a5 : Memref sig .tc .vmem S2x256 .f32) (h5 : a5.IsWhole) (a6 : Memref sig .tc .vmem S512x256 .f32) (h6 : a6.IsWhole) (a7 : Memref sig .tc .vmem S512x256 .f32) (h7 : a7.IsWhole) (hc0 : ¬cond0_0 i) (hc1 : ¬cond0_1 i) (x0 : Vec F S512x512 .f32) (x1 : Vec F S256x512 .f32) (x2 : Vec F S2x256 .f32) (xs : Vec F S512x256 .f32) :
    sout0_B_0 c i a3 h3 a4 h4 a5 h5 a6 h6 a7 h7 hc0 hc1 x0 x1 x2 xs = k0_pay2 xs x0 x1 := by
  unfold sout0_B_0
  rw [View.read_writes_eq_canon _ _ _ (scover0_B_0 c i a3 h3 a4 h4 a5 h5 a6 h6 a7 h7 hc0 hc1 x0 x1 x2 xs)]
  unfold kernelRun0_B
  dsimp only
  rw [View.canon_unit_zero hz]
  simp only [View.readAt_eq_ld, h3.read_unread, h4.read_unread, h7.read_unread, View.ld_unit_zero (S := S512x512) hz,
    View.ld_unit_zero (S := S256x512) hz, View.ld_unit_zero (S := S512x256) hz]

/-- At the last k likewise. -/
theorem acc_last (c : Dev nD) (i : grid0.Coords) (a3 : Memref sig .tc .vmem S512x512 .f32) (h3 : a3.IsWhole) (a4 : Memref sig .tc .vmem S256x512 .f32) (h4 : a4.IsWhole) (a5 : Memref sig .tc .vmem S2x256 .f32) (h5 : a5.IsWhole) (a6 : Memref sig .tc .vmem S512x256 .f32) (h6 : a6.IsWhole) (a7 : Memref sig .tc .vmem S512x256 .f32) (h7 : a7.IsWhole) (hc0 : ¬cond0_0 i) (hc1 : cond0_1 i) (x0 : Vec F S512x512 .f32) (x1 : Vec F S256x512 .f32) (x2 : Vec F S2x256 .f32) (xs : Vec F S512x256 .f32) :
    sout0_C_0 c i a3 h3 a4 h4 a5 h5 a6 h6 a7 h7 hc0 hc1 x0 x1 x2 xs = k0_pay2 xs x0 x1 := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero hz]
  simp only [View.readAt_eq_ld, h3.read_unread, h4.read_unread, h7.read_unread, View.ld_unit_zero (S := S512x512) hz,
    View.ld_unit_zero (S := S256x512) hz, View.ld_unit_zero (S := S512x256) hz]

/-- At the last k the point's block of the result is the finished accumulator plus row 0, times row 1. -/
theorem block_last (c : Dev nD) (i : grid0.Coords) (a3 : Memref sig .tc .vmem S512x512 .f32) (h3 : a3.IsWhole) (a4 : Memref sig .tc .vmem S256x512 .f32) (h4 : a4.IsWhole) (a5 : Memref sig .tc .vmem S2x256 .f32) (h5 : a5.IsWhole) (a6 : Memref sig .tc .vmem S512x256 .f32) (h6 : a6.IsWhole) (a7 : Memref sig .tc .vmem S512x256 .f32) (h7 : a7.IsWhole) (hc0 : ¬cond0_0 i) (hc1 : cond0_1 i) (x0 : Vec F S512x512 .f32) (x1 : Vec F S256x512 .f32) (x2 : Vec F S2x256 .f32) (xs : Vec F S512x256 .f32) :
    out0_C_3 c i a3 h3 a4 h4 a5 h5 a6 h6 a7 h7 hc0 hc1 x0 x1 x2 xs = k0_pay3 (row0 x2) (row1 x2) (k0_pay2 xs x0 x1) := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz]
  simp only [View.readAt_eq_ld, h3.read_unread, h4.read_unread, h5.read_unread, h7.read_unread,
    View.ld_unit_zero (S := S512x512) hz, View.ld_unit_zero (S := S256x512) hz, View.ld_unit_zero (S := S512x256) hz,
    View.readCov_unit_zero (S := S512x256) _ hz]

end Cert.ReferenceIdeal.Pieces

end
-- ==== Proof.RefPayload.lean ====
/-
  The blocked kernel's three stored values, read at an index over the extended reals.

  The block it zeroes the accumulator with is 0 everywhere. The accumulator's new value at row p and column q is its
  old value there plus the sum over the 512 values k′ of the point's block of x at (p, k′) times its block of w at
  (q, k′). The block of the result at (p, q) is the accumulator there plus the one row of the bias at q, times the one
  row of the mask at q.
-/
import proofs.«100447_g2000404418063307_pallasbulk_246_6_alg».proof.Proof.Gen.ReferenceIdeal.Skeleton
import proofs.«100447_g2000404418063307_pallasbulk_246_6_alg».proof.Proof.LibDotNT
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.ReferenceIdeal.Payload

open Cert.ReferenceIdeal Cert.ReferenceIdeal.Gen

/-- The dimension numbers of the body's product: a block of x times a block of w transposed, [512, 512] by [256, 512]. -/
abbrev DR : DotDims S512x512 S256x512 S512x256 := dot_S512x512_S256x512_S512x256_1_1_0_0_n_n

theorem DR_rank : DR.contr.rank = 1 := rfl
theorem DR_l0 (j : _) (q : DR.contr.Idx) : (DR.lhsIdx j q 0).val = (j 0).val := by
  first | rfl | (simp [DotDims.lhsIdx, DR, dot_S512x512_S256x512_S512x256_1_1_0_0_n_n] <;> rfl)
theorem DR_l1 (j : _) (q : DR.contr.Idx) : (DR.lhsIdx j q 1).val = (q ⟨0, by decide⟩).val := by
  first | rfl | (simp [DotDims.lhsIdx, DR, dot_S512x512_S256x512_S512x256_1_1_0_0_n_n] <;> rfl)
theorem DR_r0 (j : _) (q : DR.contr.Idx) : (DR.rhsIdx j q 0).val = (j 1).val := by
  first | rfl | (simp [DotDims.rhsIdx, DR, dot_S512x512_S256x512_S512x256_1_1_0_0_n_n] <;> rfl)
theorem DR_r1 (j : _) (q : DR.contr.Idx) : (DR.rhsIdx j q 1).val = (q ⟨0, by decide⟩).val := by
  first | rfl | (simp [DotDims.rhsIdx, DR, dot_S512x512_S256x512_S512x256_1_1_0_0_n_n] <;> rfl)

/-- The zero block. -/
theorem zero_apply (j : S512x256.Idx) : k0_pay1 (F := Ideal) j = 0 := by
  unfold k0_pay1
  simp only [shapeCast_self]
  exact Ideal.ofBits_zero_f32

/-- The accumulator after one point, at (p, q). -/
theorem acc_apply (acc : Vec Ideal S512x256 .f32) (x0 : Vec Ideal S512x512 .f32) (x1 : Vec Ideal S256x512 .f32)
    (p : Fin 512) (q : Fin 256) :
    k0_pay2 (F := Ideal) acc x0 x1 (ix2 p q) = acc (ix2 p q) + ∑ k : Fin 512, x0 (ix2 p k) * x1 (ix2 q k) := by
  unfold k0_pay2
  simp only [shapeCast_self]
  have hA := Cert.Lib.DotNT.matmul_zero_apply (M := 512) (K := 512) (N := 256) (φ₁ := .f32) (φ₂ := .f32) DR DR_rank rfl
    DR_l0 DR_l1 DR_r0 DR_r1 none x0 x1 (ix2 p q)
  exact congrArg (fun a : EReal => acc (ix2 p q) + a) hA

/-- The stored block of the result at (p, q). -/
theorem block_apply (r0 r1 : Vec Ideal S1x256 .f32) (acc : Vec Ideal S512x256 .f32) (p : Fin 512) (q : Fin 256) :
    k0_pay3 (F := Ideal) r0 r1 acc (ix2 p q) = (acc (ix2 p q) + r0 (ix2 (0 : Fin 1) q)) * r1 (ix2 (0 : Fin 1) q) := by
  unfold k0_pay3
  simp only [shapeCast_self]
  have hB := broadcastTo_1b_ab_apply (a := 512) (b := 256) r0 broadcasts_S1x256_S512x256 p q
  have hC := broadcastTo_1b_ab_apply (a := 512) (b := 256) r1 broadcasts_S1x256_S512x256 p q
  exact congrArg₂ (fun a b : EReal => a * b) (congrArg (fun a : EReal => acc (ix2 p q) + a) hB) hC

end Cert.ReferenceIdeal.Payload

end
-- ==== Proof.RefValue.lean ====
/-
  The blocked kernel's result array, as one function of the argument arrays.

  The grid has 8 · 8 · 4 points; point t = (I · 8 + J) · 4 + K is given rows 512·I … of x at columns 512·K …, rows
  256·J … of w at the same columns, and columns 256·J … of the two-row array of bias and mask. The weight and the two
  vectors first pass through a padding by zero entries on every side, which changes nothing. Over the four points of a
  run K = 0 … 3 the accumulator goes from zero to the sum of the four block products, which is the whole row product cut
  into four blocks of 512 values of k. The last point of the run writes the block (I, J) of the result: that sum plus the
  bias, times the mask. For arrays of real numbers this is the block of the masked linear layer, and the 64 blocks fill
  the result array.
-/
import proofs.«100447_g2000404418063307_pallasbulk_246_6_alg».proof.Proof.Spec
import proofs.«100447_g2000404418063307_pallasbulk_246_6_alg».proof.Proof.RefPieces
import proofs.«100447_g2000404418063307_pallasbulk_246_6_alg».proof.Proof.RefPayload
import Idealize.ShloMosaic.Lib.StableHlo.Run
import Idealize.ShloMosaic.Lib.KernelVsHost

noncomputable section

open scoped BigOperators
open Idealize.ShloMosaic Idealize.ShloMosaic.TcCoe Idealize.SL.Sem Idealize.ShloMosaic.ValueIdx
open Idealize.ShloMosaic.Pipeline (Dat)
open Cert.RealValued Cert.MaskedLinear

namespace Cert.ReferenceIdeal.Whole

open Cert.ReferenceIdeal Cert.ReferenceIdeal.Gen

variable (m : (ℓ : Loc nD τ sig) → Buf (Elt Ideal) ℓ) (ρ : Dev nD → PrngReg)

/-- The four argument arrays as launched, as arrays of extended reals. -/
abbrev argX (c : Dev nD) : S4096x2048.Idx → EReal := m ((c : Thread nD τ).loc main_arg0)
abbrev argW (c : Dev nD) : S2048x2048.Idx → EReal := m ((c : Thread nD τ).loc main_arg1)
abbrev argB (c : Dev nD) : S2048.Idx → EReal := m ((c : Thread nD τ).loc main_arg2)
abbrev argM (c : Dev nD) : S2048.Idx → EReal := m ((c : Thread nD τ).loc main_arg3)

/-- The masked linear layer of the argument arrays as launched. -/
abbrev resultArr (c : Dev nD) : Buf (Elt Ideal) ((c : Thread nD τ).loc main_v6) :=
  Cert.MaskedLinear.result (argX m c) (argW m c) (argB m c) (argM m c)

/-! ## Which block each window holds at a point -/

/-- The printed index maps over the 256 points t = (I · 8 + J) · 4 + K. -/
theorem idx_facts : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = 0 ∧ win0_2.index t (1 : Fin 2) = t.val / 4 % 8
    ∧ win0_3.index t (0 : Fin 2) = t.val / 32 ∧ win0_3.index t (1 : Fin 2) = t.val / 4 % 8 :=
  (by decide +kernel : ∀ t : Fin grid0.N, _)

/-! ## The arrays the region finds -/

/-- The padding value: the integer 0 read as a float. -/
abbrev padValue : S_.Idx → EReal := sitofp (F := Ideal) .f32 (constantI S_ 32 0#32)

/-- The weight the region finds: w padded by nothing. -/
theorem w_eq (c : Dev nD) : (V m c main_v0 : S2048x2048.Idx → EReal)
    = pad S2048x2048 ![0, 0] ![0, 0] ![0, 0] (argW m c) padValue pads_S2048x2048_S2048x2048_000_000 h_S_ := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results <;> rfl

theorem w_apply (c : Dev nD) (j : S2048x2048.Idx) : (V m c main_v0 : S2048x2048.Idx → EReal) j = argW m c j := by
  rw [w_eq]
  refine pad_apply_of_inside ![0, 0] ![0, 0] ![0, 0] (argW m c) padValue pads_S2048x2048_S2048x2048_000_000 h_S_ j j fun a => ?_
  match a with
  | ⟨0, _⟩ => show (j 0).val = 0 + (j 0).val * (0 + 1); omega
  | ⟨1, _⟩ => show (j 1).val = 0 + (j 1).val * (0 + 1); omega

/-- A length-2048 vector padded by nothing, read at q. -/
theorem pad1_apply (v : S2048.Idx → EReal) (q : Fin 2048) :
    pad S2048 ![0] ![0] ![0] v padValue pads_S2048_S2048_000 h_S_ (ix1 q) = v (ix1 q) := by
  refine pad_apply_of_inside ![0] ![0] ![0] v padValue pads_S2048_S2048_000 h_S_ (ix1 q) (ix1 q) fun a => ?_
  match a with
  | ⟨0, _⟩ => show q.val = 0 + q.val * (0 + 1); omega

/-- The two-row array the region finds: row 0 is the bias, row 1 is the mask, each padded by nothing. -/
theorem bm_eq (c : Dev nD) : (V m c main_v5 : S2x2048.Idx → EReal)
    = concatenate S2x2048 0
        [⟨S1x2048, broadcastInDim S1x2048 ![1] bcast_S2048_S1x2048_1
            (pad S2048 ![0] ![0] ![0] (argB m c) padValue pads_S2048_S2048_000 h_S_)⟩,
          ⟨S1x2048, broadcastInDim S1x2048 ![1] bcast_S2048_S1x2048_1
            (pad S2048 ![0] ![0] ![0] (argM m c) padValue pads_S2048_S2048_000 h_S_)⟩]
        concatenates_S1x2048_S1x2048_S2x2048_d0 := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results <;> rfl

/-- A length-2048 vector laid out as one row, read at column q. -/
theorem rowOf_apply (v : S2048.Idx → EReal) (q : Fin 2048) :
    broadcastInDim S1x2048 ![1] bcast_S2048_S1x2048_1 v (ix2 (0 : Fin 1) q) = v (ix1 q) :=
  broadcastInDim_apply ![1] bcast_S2048_S1x2048_1 v (ix2 (0 : Fin 1) q) (ix1 q) fun a => by
    match a with
    | ⟨0, _⟩ => rfl

theorem bm_row0 (c : Dev nD) (q : Fin 2048) : (V m c main_v5 : S2x2048.Idx → EReal) (ix2 (0 : Fin 2) q) = argB m c (ix1 q) := by
  rw [bm_eq]
  refine (concatenate_pair_apply_left (t := S2x2048) (s₁ := S1x2048) (s₂ := S1x2048) (0 : Fin 2) _ _ concatenates_S1x2048_S1x2048_S2x2048_d0 (ix2 (0 : Fin 2) q) rfl
    (ix2 (0 : Fin 1) q) fun b => ?_).trans ((rowOf_apply _ q).trans (pad1_apply _ q))
  match b with
  | ⟨0, _⟩ => rfl
  | ⟨1, _⟩ => rfl

theorem bm_row1 (c : Dev nD) (q : Fin 2048) : (V m c main_v5 : S2x2048.Idx → EReal) (ix2 (1 : Fin 2) q) = argM m c (ix1 q) := by
  rw [bm_eq]
  refine (concatenate_pair_apply_right (t := S2x2048) (s₁ := S1x2048) (s₂ := S1x2048) (0 : Fin 2) _ _ concatenates_S1x2048_S1x2048_S2x2048_d0 (ix2 (1 : Fin 2) q) rfl rfl
    (ix2 (0 : Fin 1) q) (fun b hb => ?_) rfl).trans ((rowOf_apply _ q).trans (pad1_apply _ q))
  match b with
  | ⟨0, _⟩ => exact absurd rfl hb
  | ⟨1, _⟩ => rfl

/-! ## The blocks a point is given -/

theorem xblk_apply (c : Dev nD) (t : Fin cfg0.N) (p k : Fin 512) (P : Fin 4096) (K : Fin 2048)
    (hP : P.val = 512 * (t.val / 32) + p.val) (hK : K.val = 512 * (t.val % 4) + k.val) :
    (iblk m c 0 t : Vec Ideal S512x512 .f32) (ix2 p k) = argX m c (ix2 P K) := by
  obtain ⟨e0, e1, -⟩ := idx_facts t
  show V m c main_arg0 (((cfg0.win 0).blk t).view.emb (ix2 p k)) = _
  rw [V_main_arg0]
  refine congrArg (argX m c) (funext fun a => Fin.ext ?_)
  match a with
  | ⟨0, _⟩ => show win0_0.index t (0 : Fin 2) * 512 + 1 * p.val = P.val; rw [e0, hP]; omega
  | ⟨1, _⟩ => show win0_0.index t (1 : Fin 2) * 512 + 1 * k.val = K.val; rw [e1, hK]; omega

theorem wblk_apply (c : Dev nD) (t : Fin cfg0.N) (q : Fin 256) (k : Fin 512) (Q K : Fin 2048)
    (hQ : Q.val = 256 * (t.val / 4 % 8) + q.val) (hK : K.val = 512 * (t.val % 4) + k.val) :
    (iblk m c 1 t : Vec Ideal S256x512 .f32) (ix2 q k) = argW m c (ix2 Q K) := by
  obtain ⟨-, -, e2, e3, -⟩ := idx_facts t
  show V m c main_v0 (((cfg0.win 1).blk t).view.emb (ix2 q k)) = _
  refine (congrArg (V m c main_v0 : S2048x2048.Idx → EReal) (funext fun a => Fin.ext ?_)).trans (w_apply m c (ix2 Q K))
  match a with
  | ⟨0, _⟩ => show win0_1.index t (0 : Fin 2) * 256 + 1 * q.val = Q.val; rw [e2, hQ]; omega
  | ⟨1, _⟩ => show win0_1.index t (1 : Fin 2) * 512 + 1 * k.val = K.val; rw [e3, hK]; omega

theorem bmblk_apply (c : Dev nD) (t : Fin cfg0.N) (r : Fin 2) (q : Fin 256) (Q : Fin 2048)
    (hQ : Q.val = 256 * (t.val / 4 % 8) + q.val) :
    (iblk m c 2 t : Vec Ideal S2x256 .f32) (ix2 r q) = (V m c main_v5 : S2x2048.Idx → EReal) (ix2 r Q) := by
  obtain ⟨-, -, -, -, e4, e5, -⟩ := idx_facts t
  show V m c main_v5 (((cfg0.win 2).blk t).view.emb (ix2 r q)) = _
  refine congrArg (V m c main_v5 : S2x2048.Idx → EReal) (funext fun a => Fin.ext ?_)
  match a with
  | ⟨0, _⟩ => show win0_2.index t (0 : Fin 2) * 2 + 1 * r.val = r.val; rw [e4]; omega
  | ⟨1, _⟩ => show win0_2.index t (1 : Fin 2) * 256 + 1 * q.val = Q.val; rw [e5, hQ]; omega

/-! ## The accumulator over a run of four points -/

/-- A point's block of x and its block of w, as arrays of extended reals. -/
abbrev xblk (c : Dev nD) (t : Fin cfg0.N) : S512x512.Idx → EReal := iblk m c 0 t
abbrev wblk (c : Dev nD) (t : Fin cfg0.N) : S256x512.Idx → EReal := iblk m c 1 t

/-- The product of point n's two blocks, at an entry of the accumulator; zero past the grid. -/
def addend (c : Dev nD) (n : ℕ) (i : S512x256.Idx) : EReal :=
  if h : n < cfg0.N then ∑ k : Fin 512, xblk m c ⟨n, h⟩ (ix2 (i 0) k) * wblk m c ⟨n, h⟩ (ix2 (i 1) k) else 0

/-- The first point of a run leaves zero plus its product. -/
theorem reset_apply (c : Dev nD) (b : ℕ) (hb4 : b % 4 = 0) (h : b < cfg0.N) (i : S512x256.Idx) :
    (Value.scAt0_0 m c b h (VS0_0.read (Elt Ideal) VS0_0.junk) : S512x256.Idx → EReal) i = 0 + addend m c b i := by
  obtain ⟨p, q, rfl⟩ : ∃ (p : Fin 512) (q : Fin 256), i = ix2 p q := ⟨i 0, i 1, eq_ix2 i⟩
  unfold Value.scAt0_0
  rw [dif_pos hb4, dif_neg (by omega), Pieces.acc_first]
  refine (Payload.acc_apply (k0_pay1 (F := Ideal)) (iblk m c 0 ⟨b, h⟩) (iblk m c 1 ⟨b, h⟩) p q).trans ?_
  rw [Payload.zero_apply]
  unfold addend
  rw [dif_pos h]

/-- Every later point of the run adds its product to what it found. -/
theorem step_apply (c : Dev nD) (n : ℕ) (hn4 : ¬n % 4 = 0) (h : n < cfg0.N) (acc : S512x256.Idx → EReal) (i : S512x256.Idx) :
    (Value.scAt0_0 m c n h acc : S512x256.Idx → EReal) i = acc i + addend m c n i := by
  obtain ⟨p, q, rfl⟩ : ∃ (p : Fin 512) (q : Fin 256), i = ix2 p q := ⟨i 0, i 1, eq_ix2 i⟩
  unfold Value.scAt0_0
  rw [dif_neg hn4]
  by_cases h3 : n % 4 = 3
  · rw [dif_pos h3, Pieces.acc_last]
    refine (Payload.acc_apply acc (iblk m c 0 ⟨n, h⟩) (iblk m c 1 ⟨n, h⟩) p q).trans ?_
    unfold addend
    rw [dif_pos h]
  · rw [dif_neg h3, Pieces.acc_middle]
    refine (Payload.acc_apply acc (iblk m c 0 ⟨n, h⟩) (iblk m c 1 ⟨n, h⟩) p q).trans ?_
    unfold addend
    rw [dif_pos h]

/-- After the last point of a run the accumulator is zero plus the four products of the run. -/
theorem acc_run (c : Dev nD) (t : Fin cfg0.N) (ht : t.val % 4 = 3) (i : S512x256.Idx) :
    ((outsAt0 m c t.val t.isLt).2 : S512x256.Idx → EReal) i
      = 0 + ∑ s ∈ Finset.range 4, addend m c (4 * (t.val / 4) + s) i := by
  have hN : cfg0.N = 256 := N_0
  have hlt := lt_of_lt_of_eq t.isLt hN
  rw [Value.soutsAt0_0_eq m c t]
  have key := Pipeline.accAt_add_apply (N := cfg0.N) (ι := S512x256.Idx) (β := EReal)
    (fun n h => Value.scAt0_0 m c n h (VS0_0.read (Elt Ideal) VS0_0.junk)) (Value.scAt0_0 m c) (fun _ => 0) (addend m c)
    (4 * (t.val / 4)) 3
    (fun h i => reset_apply m c _ (by omega) h i)
    (fun n h acc i hlo hhi => step_apply m c n (by omega) h acc i)
    (t.val % 4) (by omega) (by omega) i
  rw [key, ht]

/-- The run's accumulator holds at the last point what the last point's own addition leaves. -/
theorem acc_at_last (c : Dev nD) (t : Fin cfg0.N) (h0 : ¬t.val % 4 = 0) (h1 : t.val % 4 = 3) :
    (outsAt0 m c t.val t.isLt).2
      = k0_pay2 ((outsAt0 m c (t.val - 1) (Nat.lt_of_le_of_lt (Nat.sub_le _ _) t.isLt)).2) (iblk m c 0 t) (iblk m c 1 t) := by
  rw [outsAt0_C m c t h0 h1]
  dsimp only
  rw [Pieces.acc_last]

/-- Point n's product at (p, q), for a point of the run of block (I, J) at position s, read off the argument arrays. -/
theorem addend_apply (c : Dev nD) (n : ℕ) (h : n < cfg0.N) (p : Fin 512) (q : Fin 256) (P : Fin 4096) (Q : Fin 2048) (s : Fin 4)
    (hP : P.val = 512 * (n / 32) + p.val) (hQ : Q.val = 256 * (n / 4 % 8) + q.val) (hs : s.val = n % 4) :
    addend m c n (ix2 p q)
      = ∑ k : Fin 512, argX m c (ix2 P (blockEquiv (s, k))) * argW m c (ix2 Q (blockEquiv (s, k))) := by
  unfold addend
  rw [dif_pos h]
  refine Finset.sum_congr rfl fun k _ => ?_
  exact congrArg₂ (fun a b : EReal => a * b)
    (xblk_apply m c ⟨n, h⟩ p k P (blockEquiv (s, k)) hP (by rw [blockEquiv_val, hs]))
    (wblk_apply m c ⟨n, h⟩ q k Q (blockEquiv (s, k)) hQ (by rw [blockEquiv_val, hs]))

/-! ## One block of the result -/

theorem row0_apply (r : Vec Ideal S2x256 .f32) (q : Fin 256) : Pieces.row0 r (ix2 (0 : Fin 1) q) = r (ix2 (0 : Fin 2) q) := by
  show r ((Rect.unit (s := S2x256) ![0, 0] S1x256.size inb_S2x256_S1x256_0_0).idx (ix2 (0 : Fin 1) q)) = _
  refine congrArg r (funext fun a => Fin.ext ?_)
  match a with
  | ⟨0, _⟩ => rfl
  | ⟨1, _⟩ => show 0 + 1 * q.val = q.val; omega

theorem row1_apply (r : Vec Ideal S2x256 .f32) (q : Fin 256) : Pieces.row1 r (ix2 (0 : Fin 1) q) = r (ix2 (1 : Fin 2) q) := by
  show r ((Rect.unit (s := S2x256) ![1, 0] S1x256.size inb_S2x256_S1x256_1_0).idx (ix2 (0 : Fin 1) q)) = _
  refine congrArg r (funext fun a => Fin.ext ?_)
  match a with
  | ⟨0, _⟩ => rfl
  | ⟨1, _⟩ => show 0 + 1 * q.val = q.val; omega

/-- The block a run's last point stores, at (p, q): for arrays of real numbers it is the entry of the masked linear
    layer at the array index i that (p, q) of the block sits at. -/
theorem block_value (r : Vec Ideal S2x256 .f32) (acc : Vec Ideal S512x256 .f32)
    (X : S4096x2048.Idx → EReal) (W : S2048x2048.Idx → EReal) (bias mask : S2048.Idx → EReal)
    (p : Fin 512) (q : Fin 256) (i : S4096x2048.Idx)
    (hacc : acc (ix2 p q) = 0 + ∑ s : Fin 4, ∑ k : Fin 512, X (ix2 (i 0) (blockEquiv (s, k))) * W (ix2 (i 1) (blockEquiv (s, k))))
    (hr0 : r (ix2 (0 : Fin 2) q) = bias (ix1 (i 1))) (hr1 : r (ix2 (1 : Fin 2) q) = mask (ix1 (i 1)))
    (hX : AllReal X) (hW : AllReal W) (hB : AllReal bias) (hM : AllReal mask) :
    k0_pay3 (F := Ideal) (Pieces.row0 r) (Pieces.row1 r) acc (ix2 p q) = Cert.MaskedLinear.result X W bias mask i := by
  rw [Payload.block_apply, row0_apply, row1_apply, hacc, hr0, hr1]
  exact blockwise_eq_entry hX hW hB hM (i 0) (i 1)

/-! ## What the last point of each run writes back, and the array -/

theorem flushed_eq (c : Dev nD) (hX : AllReal (argX m c)) (hW : AllReal (argW m c)) (hB : AllReal (argB m c)) (hM : AllReal (argM m c))
    (t : Fin cfg0.N) (hf : (cfg0.win 3).flush t = true) :
    (dats m 0 c).flushed 3 t = ((cfg0.win 3).blk t).view.read (Elt Ideal) (resultArr m c) := by
  have hN : cfg0.N = 256 := N_0
  have hlt : t.val < 256 := lt_of_lt_of_eq t.isLt hN
  have ht : t.val % 4 = 3 := (flush0_3 t).mp hf
  have h0 : ¬t.val % 4 = 0 := by omega
  obtain ⟨-, -, -, -, -, -, e6, e7⟩ := idx_facts t
  rw [Value.flushed3_C m c t h0 ht, Pieces.block_last, ← acc_at_last m c t h0 ht]
  funext y
  obtain ⟨p, q, rfl⟩ : ∃ (p : Fin 512) (q : Fin 256), y = ix2 p q := ⟨y 0, y 1, eq_ix2 y⟩
  have hp := p.isLt
  have hq := q.isLt
  have hi0 : ((((cfg0.win 3).blk t).view.emb (ix2 p q) : S4096x2048.Idx) 0).val = 512 * (t.val / 32) + p.val := by
    show win0_3.index t (0 : Fin 2) * 512 + 1 * p.val = _; rw [e6]; omega
  have hi1 : ((((cfg0.win 3).blk t).view.emb (ix2 p q) : S4096x2048.Idx) 1).val = 256 * (t.val / 4 % 8) + q.val := by
    show win0_3.index t (1 : Fin 2) * 256 + 1 * q.val = _; rw [e7]; omega
  refine block_value (iblk m c 2 t) ((outsAt0 m c t.val t.isLt).2) (argX m c) (argW m c) (argB m c) (argM m c) p q
    (((cfg0.win 3).blk t).view.emb (ix2 p q)) ?_ ?_ ?_ hX hW hB hM
  · refine (acc_run m c t ht (ix2 p q)).trans (congrArg (fun a : EReal => 0 + a) ?_)
    refine (Finset.sum_range _).trans (Finset.sum_congr rfl fun s _ => ?_)
    have hs := s.isLt
    exact addend_apply m c (4 * (t.val / 4) + s.val) (by omega) p q _ _ s
      (by rw [hi0]; omega) (by rw [hi1]; omega) (by omega)
  · exact (bmblk_apply m c t 0 q _ hi1).trans (bm_row0 m c _)
  · exact (bmblk_apply m c t 1 q _ hi1).trans (bm_row1 m c _)

/-- An index of the result array is in point t's block iff each coordinate is in the block's range on its axis. -/
theorem mem_blk (t : Fin cfg0.N) (i : S4096x2048.Idx) :
    i ∈ ((cfg0.win 3).blk t).view.set ↔ ∀ a : Fin 2, win0_3.index t a * S512x256.size a ≤ (i a).val
      ∧ (i a).val < win0_3.index t a * S512x256.size a + S512x256.size a := by
  show i ∈ ((View.whole main_v6).slice (win0_3.rect t)).set ↔ _
  rw [View.set_slice_whole, Rect.mem_set_unit]
  exact Iff.rfl

/-- Entry (r, v) of the result is in the block written by the last point of the run of block (r / 512, v / 256). -/
theorem cover (i : S4096x2048.Idx) : ∃ t : Fin cfg0.N, (cfg0.win 3).flush t = true ∧ i ∈ ((cfg0.win 3).blk t).view.set := by
  have hN : cfg0.N = 256 := N_0
  have hi0 : (i 0).val < 4096 := (i 0).isLt
  have hi1 : (i 1).val < 2048 := (i 1).isLt
  have hb : ((i 0).val / 512 * 8 + (i 1).val / 256) * 4 + 3 < cfg0.N := by rw [hN]; omega
  refine ⟨⟨((i 0).val / 512 * 8 + (i 1).val / 256) * 4 + 3, hb⟩, (flush0_3 _).mpr (by dsimp only; omega), ?_⟩
  obtain ⟨-, -, -, -, -, -, e6, e7⟩ := idx_facts ⟨((i 0).val / 512 * 8 + (i 1).val / 256) * 4 + 3, hb⟩
  rw [mem_blk]
  intro a
  match a with
  | ⟨0, _⟩ =>
    show win0_3.index _ (0 : Fin 2) * 512 ≤ (i 0).val ∧ (i 0).val < win0_3.index _ (0 : Fin 2) * 512 + 512
    rw [e6]; dsimp only; omega
  | ⟨1, _⟩ =>
    show win0_3.index _ (1 : Fin 2) * 256 ≤ (i 1).val ∧ (i 1).val < win0_3.index _ (1 : Fin 2) * 256 + 256
    rw [e7]; dsimp only; omega

/-- The result array after the run, for argument arrays of real numbers. -/
theorem final (c : Dev nD) (hX : AllReal (argX m c)) (hW : AllReal (argW m c)) (hB : AllReal (argB m c)) (hM : AllReal (argM m c)) :
    (dats m 0 c).arrAt 3 cfg0.N = resultArr m c :=
  (dats m 0 c).arrAt_eq_of_cover 3 (resultArr m c) (flushed_eq m c hX hW hB hM) cover

/-- The run: for argument arrays of real numbers it terminates with the result array at the masked linear layer of the
    arguments, which are unchanged. -/
theorem run (hreal : ∀ c : Dev nD, AllReal (argX m c) ∧ AllReal (argW m c) ∧ AllReal (argB m c) ∧ AllReal (argM m c)) :
    θ_run defs (onTc (τ := τ) (main (F := Ideal))) ⟨m, fun _ => 0, ρ⟩ fun r => ∀ c : Dev nD,
      r.2.mem ((c : Thread nD τ).loc main_v6) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hreal c).1 (hreal c).2.1 (hreal c).2.2.1 (hreal c).2.2.2), (h c).2⟩)
    (Value.run_blocks m ρ)

end Cert.ReferenceIdeal.Whole

end
-- ==== Proof.Finite.lean ====
/-
  From the stated precondition to real entries.

  The precondition says, of each of the four argument arrays, that every entry x has |x| < +∞, where |x| is
  max x (−x). On the extended reals that excludes exactly +∞ (|+∞| = +∞) and −∞ (|−∞| = +∞): what is left is a real
  number. The four statements are joined by "and" into one word, which the precondition says is 1.
-/
import proofs.«100447_g2000404418063307_pallasbulk_246_6_alg».proof.Pre_finite_inputs
import proofs.«100447_g2000404418063307_pallasbulk_246_6_alg».proof.Proof.Gen.Pre_finite_inputs
import proofs.«100447_g2000404418063307_pallasbulk_246_6_alg».proof.Proof.LibRealValued
import Idealize.ShloMosaic.Lib.ReduceAll
import Idealize.ShloMosaic.Lib.Affine
import Idealize.ShloMosaic.Lib.ValueIdx
import Idealize.ShloMosaic.PureOps.Ideal.Laws

noncomputable section

namespace Cert.MaskedLinear.Finite

open Idealize.ShloMosaic Cert.RealValued

/-- The word 0x7F800000 denotes +∞. -/
theorem inf_word : Ideal.ofBits .f32 0x7F800000#32 = (⊤ : EReal) := by simp [Ideal.ofBits, Ideal.ieee]

/-- An extended real whose absolute value is below +∞ is a real number. -/
theorem isReal_of_abs_lt_inf (x : EReal) (h : Ideal.cmp .olt (max x (-x)) (Ideal.ofBits .f32 0x7F800000#32) = 1#1) : IsReal x := by
  rw [inf_word] at h
  induction x using EReal.rec with
  | bot => exfalso; simp [Ideal.cmp] at h
  | coe r => exact ⟨r, rfl⟩
  | top => exfalso; simp [Ideal.cmp] at h

instance : Subsingleton Cert.Pre_finite_inputs.S_.Idx := ⟨fun a b => funext fun d => d.elim0⟩

/-- Where the precondition holds, every entry of each argument array is a real number. -/
theorem allReal_of_pre (a0 : FVec Ideal Cert.Pre_finite_inputs.S4096x2048 .f32) (a1 : FVec Ideal Cert.Pre_finite_inputs.S2048x2048 .f32)
    (a2 a3 : FVec Ideal Cert.Pre_finite_inputs.S2048 .f32)
    (h : Cert.Pre_finite_inputs.fn (F := Ideal) a0 a1 a2 a3 = fun _ => 1#1) :
    AllReal a0 ∧ AllReal a1 ∧ AllReal a2 ∧ AllReal a3 := by
  have h0 := congrFun h ValueIdx.ix0
  dsimp only [Cert.Pre_finite_inputs.fn, Cert.Pre_finite_inputs.fn_part1] at h0
  obtain ⟨h012, e3⟩ := IntOp.andi_eq_one.mp h0
  obtain ⟨h01, e2⟩ := IntOp.andi_eq_one.mp h012
  obtain ⟨e0, e1⟩ := IntOp.andi_eq_one.mp h01
  exact ⟨fun i => isReal_of_abs_lt_inf (a0 i) (Host.reduce_andi_all _ _ _ _ ValueIdx.ix0 e0 i),
    fun i => isReal_of_abs_lt_inf (a1 i) (Host.reduce_andi_all _ _ _ _ ValueIdx.ix0 e1 i),
    fun i => isReal_of_abs_lt_inf (a2 i) (Host.reduce_andi_all _ _ _ _ ValueIdx.ix0 e2 i),
    fun i => isReal_of_abs_lt_inf (a3 i) (Host.reduce_andi_all _ _ _ _ ValueIdx.ix0 e3 i)⟩

end Cert.MaskedLinear.Finite

end
-- ==== Proof.lean ====
/-
  A masked linear layer, z = (x · wᵀ + bias) · mask, computed two ways.

  The kernel under proof forms bias · mask beforehand, keeps the whole weight at hand, and for each block of 512 rows of
  x stores (x · wᵀ) · mask + bias · mask. The reference cuts the product into blocks — 512 rows of x by 256 rows of w by
  512 values of the contracted index —, accumulates the four partial products of a block from zero, and stores
  (sum + bias) · mask. Read over the extended reals, where every float operation is the exact one and a change of format
  is the identity, both leave the same array whenever the entries of the four arguments are real numbers, which is what
  the precondition says: the contracted sum may be cut into blocks freely, and (a + b) · c = a · c + b · c holds for real
  a, b, c. (With an infinite entry the two could differ: the multiplied-out form can meet +∞ − ∞ where the other does not.)

  Each program's run — that it terminates, faults nowhere, leaves the arguments as they were, and what its result array
  then holds — is read off the generated frame runs; the two result arrays are the same function of the arguments.
-/
import proofs.«100447_g2000404418063307_pallasbulk_246_6_alg».proof.Defs
import proofs.«100447_g2000404418063307_pallasbulk_246_6_alg».proof.Proof.Gen.Kernel
import proofs.«100447_g2000404418063307_pallasbulk_246_6_alg».proof.Proof.Gen.Kernel.Skeleton
import proofs.«100447_g2000404418063307_pallasbulk_246_6_alg».proof.Proof.Gen.Kernel.Launch
import proofs.«100447_g2000404418063307_pallasbulk_246_6_alg».proof.Proof.Gen.Kernel.Points
import proofs.«100447_g2000404418063307_pallasbulk_246_6_alg».proof.Proof.Gen.Kernel.Frame
import proofs.«100447_g2000404418063307_pallasbulk_246_6_alg».proof.Proof.Gen.KernelIdeal
import proofs.«100447_g2000404418063307_pallasbulk_246_6_alg».proof.Proof.Gen.KernelIdeal.Skeleton
import proofs.«100447_g2000404418063307_pallasbulk_246_6_alg».proof.Proof.Gen.KernelIdeal.Launch
import proofs.«100447_g2000404418063307_pallasbulk_246_6_alg».proof.Proof.Gen.KernelIdeal.Points
import proofs.«100447_g2000404418063307_pallasbulk_246_6_alg».proof.Proof.Gen.KernelIdeal.Frame
import proofs.«100447_g2000404418063307_pallasbulk_246_6_alg».proof.Proof.Gen.ReferenceIdeal
import proofs.«100447_g2000404418063307_pallasbulk_246_6_alg».proof.Proof.Gen.ReferenceIdeal.Skeleton
import proofs.«100447_g2000404418063307_pallasbulk_246_6_alg».proof.Proof.Gen.ReferenceIdeal.Launch
import proofs.«100447_g2000404418063307_pallasbulk_246_6_alg».proof.Proof.Gen.ReferenceIdeal.Points
import proofs.«100447_g2000404418063307_pallasbulk_246_6_alg».proof.Proof.Gen.ReferenceIdeal.Frame
import proofs.«100447_g2000404418063307_pallasbulk_246_6_alg».proof.Proof.Gen.Pre_finite_inputs
import Idealize.ShloMosaic.Adequacy
import Idealize.ShloMosaic.Init
import proofs.«100447_g2000404418063307_pallasbulk_246_6_alg».proof.Proof.KernelValue
import proofs.«100447_g2000404418063307_pallasbulk_246_6_alg».proof.Proof.RefValue
import proofs.«100447_g2000404418063307_pallasbulk_246_6_alg».proof.Proof.Finite

noncomputable section

namespace Cert.Proof

open Idealize.ShloMosaic Idealize.SL.Sem Cert.RealValued

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- And the reference's. -/
theorem frame_referenceIdeal : Cert.frame_ReferenceIdeal (hReferenceIdeal := Cert.ReferenceIdeal.Gen.facts) (hPre_finite_inputs := Cert.Pre_finite_inputs.Gen.facts) :=
  fun m ρ _ => Cert.ReferenceIdeal.Gen.frame m ρ

/-- Nothing was rewritten to obtain the idealized kernel. -/
theorem preserves : Cert.preserves_Kernel_KernelIdeal := trivial

/-- From memories that agree on the arguments, with every argument entry real, both idealized programs end with the
    masked linear layer of the arguments in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hreal : ∀ c : Dev Cert.KernelIdeal.nD,
      AllReal (Cert.KernelIdeal.Whole.argX m c) ∧ AllReal (Cert.KernelIdeal.Whole.argW m c)
        ∧ AllReal (Cert.KernelIdeal.Whole.argB m c) ∧ AllReal (Cert.KernelIdeal.Whole.argM m c) :=
    fun c => Cert.MaskedLinear.Finite.allReal_of_pre _ _ _ _ (hpre c)
  have hreal' : ∀ c : Dev Cert.ReferenceIdeal.nD,
      AllReal (Cert.ReferenceIdeal.Whole.argX m' c) ∧ AllReal (Cert.ReferenceIdeal.Whole.argW m' c)
        ∧ AllReal (Cert.ReferenceIdeal.Whole.argB m' c) ∧ AllReal (Cert.ReferenceIdeal.Whole.argM m' c) := fun c => by
    have h := hreal c
    dsimp only [Cert.ReferenceIdeal.Whole.argX, Cert.ReferenceIdeal.Whole.argW, Cert.ReferenceIdeal.Whole.argB,
      Cert.ReferenceIdeal.Whole.argM]
    rw [(hagree c).1, (hagree c).2.1, (hagree c).2.2.1, (hagree c).2.2.2]
    exact h
  refine ⟨fun c => Cert.KernelIdeal.Whole.resultArr m c, Cert.KernelIdeal.Whole.run m ρ, ?_⟩
  refine (θ_run Cert.ReferenceIdeal.defs _ _).mono (fun r h c => ⟨(h c).1.trans ?_, (h c).2⟩)
    (Cert.ReferenceIdeal.Whole.run m' ρ' hreal')
  dsimp only [Cert.ReferenceIdeal.Whole.resultArr, Cert.ReferenceIdeal.Whole.argX, Cert.ReferenceIdeal.Whole.argW,
    Cert.ReferenceIdeal.Whole.argB, Cert.ReferenceIdeal.Whole.argM, Cert.KernelIdeal.Whole.resultArr,
    Cert.KernelIdeal.Whole.argX, Cert.KernelIdeal.Whole.argW, Cert.KernelIdeal.Whole.argB, Cert.KernelIdeal.Whole.argM]
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
